-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S10000x128 : Shape := ⟨2, ![10000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S128 .f32) (main_arg8 : FVec F S128x10 .f32) (main_arg9 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : IVec S50000 32) (main_arg1 : IVec S2x800000 32) (main_arg2 : IVec S50000 32) (main_arg3 : FVec F S10000x128 .f32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S10000x128 .f32 := Host.absf main_arg3
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S50000 : Shape := ⟨1, ![50000]⟩
abbrev S2x800000 : Shape := ⟨2, ![2, 800000]⟩
abbrev S10000x128 : Shape := ⟨2, ![10000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S10000 : Shape := ⟨1, ![10000]⟩
abbrev S_ : Shape := ⟨0, ![]⟩
abbrev S10000x1 : Shape := ⟨2, ![10000, 1]⟩
abbrev S50000x1 : Shape := ⟨2, ![50000, 1]⟩
abbrev S50000x128 : Shape := ⟨2, ![50000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 113
  | .vmem => 24
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S10000, .i32⟩
  | .hbm, ⟨11, _⟩ => ⟨S_, .i32⟩
  | .hbm, ⟨12, _⟩ => ⟨S10000, .i32⟩
  | .hbm, ⟨13, _⟩ => ⟨S10000, .i1⟩
  | .hbm, ⟨14, _⟩ => ⟨S10000x1, .i1⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S50000x128, .f32⟩
  | .hbm, ⟨27, _⟩ => ⟨S50000, .i32⟩
  | .hbm, ⟨28, _⟩ => ⟨S1x800000, .i32⟩
  | .hbm, ⟨29, _⟩ => ⟨S800000, .i32⟩
  | .hbm, ⟨30, _⟩ => ⟨S850000, .i32⟩
  | .hbm, ⟨31, _⟩ => ⟨S1x800000, .i32⟩
  | .hbm, ⟨32, _⟩ => ⟨S800000, .i32⟩
  | .hbm, ⟨33, _⟩ => ⟨S850000, .i32⟩
  | .hbm, ⟨34, _⟩ => ⟨S_, .f32⟩
  | .hbm, ⟨35, _⟩ => ⟨S850000, .f32⟩
  | .hbm, ⟨36, _⟩ => ⟨S_, .f32⟩
  | .hbm, ⟨37, _⟩ => ⟨S50000, .f32⟩
  | .hbm, ⟨38, _⟩ => ⟨S850000x1, .i32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000, .f32⟩
  | .hbm, ⟨59, _⟩ => ⟨S850000, .f32⟩
  | .hbm, ⟨60, _⟩ => ⟨S50000x128, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x1, .f32⟩
  | .hbm, ⟨71, _⟩ => ⟨S850000x128, .f32⟩
  | .hbm, ⟨72, _⟩ => ⟨S850000x128, .f32⟩
  | .hbm, ⟨73, _⟩ => ⟨S_, .f32⟩
  | .hbm, ⟨74, _⟩ => ⟨S50000x128, .f32⟩
  | .hbm, ⟨75, _⟩ => ⟨S850000x1, .i32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000x128, .f32⟩
  | .hbm, ⟨88, _⟩ => ⟨S850000x1, .f32⟩
  | .hbm, ⟨89, _⟩ => ⟨S850000x128, .f32⟩
  | .hbm, ⟨90, _⟩ => ⟨S850000x128, .f32⟩
  | .hbm, ⟨91, _⟩ => ⟨S_, .f32⟩
  | .hbm, ⟨92, _⟩ => ⟨S50000x128, .f32⟩
  | .hbm, ⟨93, _⟩ => ⟨S850000x1, .i32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S512x128, .f32⟩
  | .hbm, ⟨98, _⟩ => ⟨S50000x1, .i32⟩
  | .hbm, ⟨99, _⟩ => ⟨S512x128, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S512, .f32⟩
  | .hbm, ⟨104, _⟩ => ⟨S50000x1, .i32⟩
  | .hbm, ⟨105, _⟩ => ⟨S512, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S512x1, .f32⟩
  | .hbm, ⟨110, _⟩ => ⟨S512x128, .f32⟩
  | .hbm, ⟨111, _⟩ => ⟨S512x128, .f32⟩
  | .hbm, ⟨112, _⟩ => ⟨S512x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S512x128, .f32⟩
  | .local _ .vmem, ⟨21, _⟩ => ⟨S128x10, .f32⟩
  | .local _ .vmem, ⟨22, _⟩ => ⟨S10, .f32⟩
  | .local _ .vmem, ⟨23, _⟩ => ⟨S512x10, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S10000x128_S50000x1_S50000x128_1_0_n_n_0_1_1128_wf : GatherDims.WF S10000x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10.size a ≤ S10.size a
  hwx4_2 : ∀ i : grid4.Coords, EltTy.bits .f32 = 32 ∨ (Rect.block (s := S10) S10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x10.size a ≤ S512x10.size a
  hwx4_3 : ∀ i : grid4.Coords, EltTy.bits .f32 = 32 ∨ (Rect.block (s := S512x10) S512x10.size (cc4_transform_3 i) (hinb4_3 i)).WholeWords (EltTy.packing .f32)

variable [Facts₀]

def gather_S10000x128_S50000x1_S50000x128_1_0_n_n_0_1_1128 : GatherDims S10000x128 S50000x1 S50000x128 where
  offsetDims := [1]
  collapsedSliceDims := [0]
  operandBatchingDims := []
  startIndicesBatchingDims := []
  startIndexMap := [0]
  indexVectorDim := 1
  sliceSizes := ![1, 128]
  wf := gather_S10000x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v82) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S512x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000 : Shape := ⟨1, ![50000]⟩
abbrev S2x800000 : Shape := ⟨2, ![2, 800000]⟩
abbrev S10000x128 : Shape := ⟨2, ![10000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S10000 : Shape := ⟨1, ![10000]⟩
abbrev S_ : Shape := ⟨0, ![]⟩
abbrev S10000x1 : Shape := ⟨2, ![10000, 1]⟩
abbrev S50000x1 : Shape := ⟨2, ![50000, 1]⟩
abbrev S50000x128 : Shape := ⟨2, ![50000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 126
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S10000, .i32⟩
  | .hbm, ⟨11, _⟩ => ⟨S_, .i32⟩
  | .hbm, ⟨12, _⟩ => ⟨S10000, .i32⟩
  | .hbm, ⟨13, _⟩ => ⟨S10000, .i1⟩
  | .hbm, ⟨14, _⟩ => ⟨S10000x1, .i1⟩
  | .hbm, ⟨15, _⟩ => ⟨S10000x1, .f32⟩
  | .hbm, ⟨16, _⟩ => ⟨S10000x128, .f32⟩
  | .hbm, ⟨17, _⟩ => ⟨S10000x128, .f32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S50000x128, .f32⟩
  | .hbm, ⟨27, _⟩ => ⟨S50000, .i32⟩
  | .hbm, ⟨28, _⟩ => ⟨S1x800000, .i32⟩
  | .hbm, ⟨29, _⟩ => ⟨S800000, .i32⟩
  | .hbm, ⟨30, _⟩ => ⟨S850000, .i32⟩
  | .hbm, ⟨31, _⟩ => ⟨S1x800000, .i32⟩
  | .hbm, ⟨32, _⟩ => ⟨S800000, .i32⟩
  | .hbm, ⟨33, _⟩ => ⟨S850000, .i32⟩
  | .hbm, ⟨34, _⟩ => ⟨S_, .f32⟩
  | .hbm, ⟨35, _⟩ => ⟨S850000, .f32⟩
  | .hbm, ⟨36, _⟩ => ⟨S_, .f32⟩
  | .hbm, ⟨37, _⟩ => ⟨S50000, .f32⟩
  | .hbm, ⟨38, _⟩ => ⟨S850000x1, .i32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000, .f32⟩
  | .hbm, ⟨59, _⟩ => ⟨S850000, .f32⟩
  | .hbm, ⟨60, _⟩ => ⟨S50000x128, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x1, .f32⟩
  | .hbm, ⟨71, _⟩ => ⟨S850000x128, .f32⟩
  | .hbm, ⟨72, _⟩ => ⟨S850000x128, .f32⟩
  | .hbm, ⟨73, _⟩ => ⟨S_, .f32⟩
  | .hbm, ⟨74, _⟩ => ⟨S50000x128, .f32⟩
  | .hbm, ⟨75, _⟩ => ⟨S850000x1, .i32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x128, .f32⟩
  | .hbm, ⟨93, _⟩ => ⟨S850000x1, .f32⟩
  | .hbm, ⟨94, _⟩ => ⟨S850000x128, .f32⟩
  | .hbm, ⟨95, _⟩ => ⟨S850000x128, .f32⟩
  | .hbm, ⟨96, _⟩ => ⟨S_, .f32⟩
  | .hbm, ⟨97, _⟩ => ⟨S50000x128, .f32⟩
  | .hbm, ⟨98, _⟩ => ⟨S850000x1, .i32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S_, .f32⟩
  | .hbm, ⟨107, _⟩ => ⟨S512x128, .f32⟩
  | .hbm, ⟨108, _⟩ => ⟨S50000x1, .i32⟩
  | .hbm, ⟨109, _⟩ => ⟨S512x128, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S512, .f32⟩
  | .hbm, ⟨114, _⟩ => ⟨S50000x1, .i32⟩
  | .hbm, ⟨115, _⟩ => ⟨S512, .f32⟩
  | .hbm, ⟨116, _⟩ => ⟨S_, .f32⟩
  | .hbm, ⟨117, _⟩ => ⟨S512, .f32⟩
  | .hbm, ⟨118, _⟩ => ⟨S512, .f32⟩
  | .hbm, ⟨119, _⟩ => ⟨S512x1, .f32⟩
  | .hbm, ⟨120, _⟩ => ⟨S512x128, .f32⟩
  | .hbm, ⟨121, _⟩ => ⟨S512x128, .f32⟩
  | .hbm, ⟨122, _⟩ => ⟨S512x10, .f32⟩
  | .hbm, ⟨123, _⟩ => ⟨S1x10, .f32⟩
  | .hbm, ⟨124, _⟩ => ⟨S512x10, .f32⟩
  | .hbm, ⟨125, _⟩ => ⟨S512x10, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_cst : Ref sig .tc := ⟨.hbm, 103, rfl⟩
abbrev main_call1_v0 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S10000x128_S50000x1_S50000x128_1_0_n_n_0_1_1128_wf : GatherDims.WF S10000x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def gather_S10000x128_S50000x1_S50000x128_1_0_n_n_0_1_1128 : GatherDims S10000x128 S50000x1 S50000x128 where
  offsetDims := [1]
  collapsedSliceDims := [0]
  operandBatchingDims := []
  startIndicesBatchingDims := []
  startIndexMap := [0]
  indexVectorDim := 1
  sliceSizes := ![1, 128]
  wf := gather_S10000x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel's run with its result named.

  The program is five kernel regions among four stretches of host operations.  Its run ends with every buffer
  that outlives a region at the contents the last segment boundary names; in particular the result array holds what
  the last region's write-backs leave, and the ten argument arrays hold what they held at launch.
-/
import proofs.«163857_j88648124990263_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at what the
    last region (the classifier) leaves in its output window's array, entered from the contents the fourth host
    stretch leaves; the arguments end as launched. -/
theorem run_result : θ_run defs (onTc (τ := τ) (main (F := F))) ⟨m, fun _ => 0, ρ⟩ (fun r => ∀ c : Dev nD,
      r.2.mem ((c.tc : Thread nD τ).loc main_v83) = (dat4 (V8 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨(h c _ (mem_uc main_v83 (by decide))).trans (W9_arr m ρ c 3),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.RunValue

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.Region0.lean ====
/-
  Region 0 of the idealized kernel: a dense product, five row blocks of 10000 rows each.

  At grid point t the body loads rows 10000 t … 10000 t + 9999 of the left operand and the whole right operand
  (the changes of float format are the identity on exact values), multiplies them on the matrix unit into a zero
  accumulator and stores the product as rows 10000 t … of the output.  Entry (r, q) of a block's product is the sum
  over k of left (10000 t + r, k) * right (k, q), which is entry (10000 t + r, q) of the product of the whole
  arrays; the five blocks tile the 50000 rows, so after the region the output array IS the whole product.
-/
import proofs.«163857_j88648124990263_1_alg».proof.Proof.Gen.KernelIdeal.Frame
import proofs.«163857_j88648124990263_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays: what the output array holds after the region. -/
abbrev whole (x : FVec Ideal S50000x128 .f32) (w : FVec Ideal S128x128 .f32) : FVec Ideal S50000x128 .f32 :=
  Host.dotGeneral (F := Ideal) (DotDims.plain 50000 128 128) none x w

/-- Entry (r, q) of the whole product. -/
theorem whole_apply (x : FVec Ideal S50000x128 .f32) (w : FVec Ideal S128x128 .f32) (r : Fin 50000) (q : Fin 128) :
    whole x w (ix2 r q) = ∑ k : Fin 128, x (ix2 r k) * w (ix2 k q) := by
  unfold whole
  simp only [Host.dotGeneral]
  exact PlainDot.dotGeneral_apply (M := 50000) (K := 128) (N := 128) none _ x w r q

/-- Entry (r, q) of a block's product: the sum over k of the loaded rows at (r, k) times the weights at (k, q). -/
theorem pay_apply (x0 : Vec Ideal S10000x128 .f32) (x1 : Vec Ideal S128x128 .f32) (r : Fin 10000) (q : Fin 128) :
    k0_pay1 x0 x1 (ix2 r q) = ∑ k : Fin 128, x0 (ix2 r k) * x1 (ix2 k q) := by
  unfold k0_pay1
  rw [shapeCast_self]
  exact PlainDot.matmul_zero_apply (M := 10000) (K := 128) (N := 128) none
    (truncf .bf16 x0 bitsLt_bf16_f32) (truncf .bf16 x1 bitsLt_bf16_f32) r q

/-- The printed index maps over the grid: the row-block windows sit at block (t, 0), the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t writes back rows 10000 t … of the whole product of the arrays as the region finds them. -/
theorem flushed_eq (c : Dev nD) (t : Fin cfg0.N) :
    (dat0 V c).flushed 2 t = ((cfg0.win 2).blk t).view.read (Elt Ideal) (whole (V c main_v13) (V c main_arg4)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  have ht : t.val < 5 := t.isLt
  funext j
  obtain ⟨r, q, rfl⟩ : ∃ (r : Fin 10000) (q : Fin 128), j = ix2 r q := ⟨j 0, j 1, eq_ix2 j⟩
  show k0_pay1 (iblk0 V c 0 t) (iblk0 V c 1 t) (ix2 r q) = whole (V c main_v13) (V c main_arg4) (((cfg0.win 2).blk t).view.emb (ix2 r q))
  have hout : ((cfg0.win 2).blk t).view.emb (ix2 r q) = ix2 (⟨t.val * 10000 + r.val, by omega⟩ : Fin 50000) q := by
    funext a; apply Fin.ext
    match a with
    | ⟨0, _⟩ => show win0_2.index t (0 : Fin 2) * 10000 + 1 * r.val = t.val * 10000 + r.val; omega
    | ⟨1, _⟩ => show win0_2.index t (1 : Fin 2) * 128 + 1 * q.val = q.val; omega
  rw [hout, whole_apply, pay_apply]
  refine Finset.sum_congr rfl fun k _ => ?_
  have hx : ((cfg0.win 0).blk t).view.emb (ix2 r k) = ix2 (⟨t.val * 10000 + r.val, by omega⟩ : Fin 50000) k := by
    funext a; apply Fin.ext
    match a with
    | ⟨0, _⟩ => show win0_0.index t (0 : Fin 2) * 10000 + 1 * r.val = t.val * 10000 + r.val; omega
    | ⟨1, _⟩ => show win0_0.index t (1 : Fin 2) * 128 + 1 * k.val = k.val; omega
  have hw : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have hx' : iblk0 V c 0 t (ix2 r k) = V c main_v13 (ix2 (⟨t.val * 10000 + r.val, by omega⟩ : Fin 50000) k) := congrArg (V c main_v13) hx
  have hw' : iblk0 V c 1 t (ix2 k q) = V c main_arg4 (ix2 k q) := congrArg (V c main_arg4) hw
  rw [hx', hw']

/-- An index of the output array is in point t's block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v41).slice (win0_2.rect t)).set ↔ _
  rw [View.set_slice_whole, Rect.mem_set_unit]
  exact Iff.rfl

/-- Every row lies in the block of the point its row number divided by 10000 names. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  let t : Fin cfg0.N := ⟨(i 0).val / 10000, by rw [hN]; omega⟩
  obtain ⟨e0, e1, e2, e3, e4, e5⟩ := idx_facts t
  have tv : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array is the whole product of the two input arrays as the region finds them. -/
theorem final (c : Dev nD) :
    (dat0 V c).arrAt 2 cfg0.N = whole (V c main_v13) (V c main_arg4) :=
  (dat0 V c).arrAt_eq_of_cover 2 _ (fun t _ => flushed_eq V c t) cover

end Cert.KernelIdeal.Region0

end
-- ==== Proof.Region1.lean ====
/-
  Region 1 of the idealized kernel: bias and rectifier, five row blocks of 10000 rows each.

  At grid point t the body loads rows 10000 t … 10000 t + 9999 of the aggregated features and the whole bias
  vector, adds the bias to every row and takes the maximum with zero, and stores the result as the same rows of the
  output.  Entry (r, q) of a block depends only on the input at (10000 t + r, q) and on bias q, so the five blocks
  are the restrictions of one function of the whole arrays, and they tile the 50000 rows.
-/
import proofs.«163857_j88648124990263_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- What the output array holds after the region: max (a (r, q) + b q, 0) at every (r, q). -/
abbrev whole (a : FVec Ideal S50000x128 .f32) (b : FVec Ideal S128 .f32) : FVec Ideal S50000x128 .f32 :=
  fun i => max (a i + b (ix1 (i 1))) (Ideal.ofBits .f32 0x00000000#32)

/-- Entry (r, q) of a block: the loaded row entry plus bias q, clamped below at zero. -/
theorem pay_apply (x0 : Vec Ideal S10000x128 .f32) (x1 : Vec Ideal S128 .f32) (r : Fin 10000) (q : Fin 128) :
    k1_pay1 x0 x1 (ix2 r q) = max (x0 (ix2 r q) + x1 (ix1 q)) (Ideal.ofBits .f32 0x00000000#32) := by
  unfold k1_pay1
  rw [shapeCast_self]
  show max (x0 (ix2 r q) + broadcastTo S10000x128 (shapeCast S1x128 x1 shapeCasts_S128_S1x128) broadcasts_S1x128_S10000x128 (ix2 r q)) _ = _
  rw [broadcastTo_1b_ab_apply, shapeCast_a_1a_apply]
  rfl

/-- The printed index maps over the grid: the row-block windows sit at block (t, 0), the bias at block 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Point t writes back rows 10000 t … of that function of the arrays as the region finds them. -/
theorem flushed_eq (c : Dev nD) (t : Fin cfg1.N) :
    (dat1 V c).flushed 2 t = ((cfg1.win 2).blk t).view.read (Elt Ideal) (whole (V c main_v54) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128) hz1]
  obtain ⟨e0, e1, e2, e4, e5⟩ := idx_facts t
  have ht : t.val < 5 := t.isLt
  funext j
  obtain ⟨r, q, rfl⟩ : ∃ (r : Fin 10000) (q : Fin 128), j = ix2 r q := ⟨j 0, j 1, eq_ix2 j⟩
  show k1_pay1 (iblk1 V c 0 t) (iblk1 V c 1 t) (ix2 r q) = whole (V c main_v54) (V c main_arg5) (((cfg1.win 2).blk t).view.emb (ix2 r q))
  have hout : ((cfg1.win 2).blk t).view.emb (ix2 r q) = ix2 (⟨t.val * 10000 + r.val, by omega⟩ : Fin 50000) q := by
    funext a; apply Fin.ext
    match a with
    | ⟨0, _⟩ => show win1_2.index t (0 : Fin 2) * 10000 + 1 * r.val = t.val * 10000 + r.val; omega
    | ⟨1, _⟩ => show win1_2.index t (1 : Fin 2) * 128 + 1 * q.val = q.val; omega
  have hx : ((cfg1.win 0).blk t).view.emb (ix2 r q) = ix2 (⟨t.val * 10000 + r.val, by omega⟩ : Fin 50000) q := by
    funext a; apply Fin.ext
    match a with
    | ⟨0, _⟩ => show win1_0.index t (0 : Fin 2) * 10000 + 1 * r.val = t.val * 10000 + r.val; omega
    | ⟨1, _⟩ => show win1_0.index t (1 : Fin 2) * 128 + 1 * q.val = q.val; omega
  have hb : ((cfg1.win 1).blk t).view.emb (ix1 q) = ix1 q := by
    funext a; apply Fin.ext
    match a with
    | ⟨0, _⟩ => show win1_1.index t (0 : Fin 1) * 128 + 1 * q.val = q.val; omega
  rw [hout, pay_apply]
  have hx' : iblk1 V c 0 t (ix2 r q) = V c main_v54 (ix2 (⟨t.val * 10000 + r.val, by omega⟩ : Fin 50000) q) := congrArg (V c main_v54) hx
  have hb' : iblk1 V c 1 t (ix1 q) = V c main_arg5 (ix1 q) := congrArg (V c main_arg5) hb
  rw [hx', hb']

/-- An index of the output array is in point t's block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v55).slice (win1_2.rect t)).set ↔ _
  rw [View.set_slice_whole, Rect.mem_set_unit]
  exact Iff.rfl

/-- Every row lies in the block of the point its row number divided by 10000 names. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨e0, e1, e2, e4, e5⟩ := idx_facts t
  have tv : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region the output array is that function of the two input arrays as the region finds them. -/
theorem final (c : Dev nD) :
    (dat1 V c).arrAt 2 cfg1.N = whole (V c main_v54) (V c main_arg5) :=
  (dat1 V c).arrAt_eq_of_cover 2 _ (fun t _ => flushed_eq V c t) cover

end Cert.KernelIdeal.Region1

end
-- ==== Proof.Region2.lean ====
/-
  Region 2 of the idealized kernel: a dense product, five row blocks of 10000 rows each.

  At grid point t the body loads rows 10000 t … 10000 t + 9999 of the left operand and the whole right operand
  (the changes of float format are the identity on exact values), multiplies them on the matrix unit into a zero
  accumulator and stores the product as rows 10000 t … of the output.  Entry (r, q) of a block's product is the sum
  over k of left (10000 t + r, k) * right (k, q), which is entry (10000 t + r, q) of the product of the whole
  arrays; the five blocks tile the 50000 rows, so after the region the output array IS the whole product.
-/
import proofs.«163857_j88648124990263_1_alg».proof.Proof.Gen.KernelIdeal.Frame
import proofs.«163857_j88648124990263_1_alg».proof.Proof.LibPlainDot
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The product of the whole arrays: what the output array holds after the region. -/
abbrev whole (x : FVec Ideal S50000x128 .f32) (w : FVec Ideal S128x128 .f32) : FVec Ideal S50000x128 .f32 :=
  Host.dotGeneral (F := Ideal) (DotDims.plain 50000 128 128) none x w

/-- Entry (r, q) of the whole product. -/
theorem whole_apply (x : FVec Ideal S50000x128 .f32) (w : FVec Ideal S128x128 .f32) (r : Fin 50000) (q : Fin 128) :
    whole x w (ix2 r q) = ∑ k : Fin 128, x (ix2 r k) * w (ix2 k q) := by
  unfold whole
  simp only [Host.dotGeneral]
  exact PlainDot.dotGeneral_apply (M := 50000) (K := 128) (N := 128) none _ x w r q

/-- Entry (r, q) of a block's product: the sum over k of the loaded rows at (r, k) times the weights at (k, q). -/
theorem pay_apply (x0 : Vec Ideal S10000x128 .f32) (x1 : Vec Ideal S128x128 .f32) (r : Fin 10000) (q : Fin 128) :
    k2_pay1 x0 x1 (ix2 r q) = ∑ k : Fin 128, x0 (ix2 r k) * x1 (ix2 k q) := by
  unfold k2_pay1
  rw [shapeCast_self]
  exact PlainDot.matmul_zero_apply (M := 10000) (K := 128) (N := 128) none
    (truncf .bf16 x0 bitsLt_bf16_f32) (truncf .bf16 x1 bitsLt_bf16_f32) r q

/-- The printed index maps over the grid: the row-block windows sit at block (t, 0), the weights at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point t writes back rows 10000 t … of the whole product of the arrays as the region finds them. -/
theorem flushed_eq (c : Dev nD) (t : Fin cfg2.N) :
    (dat2 V c).flushed 2 t = ((cfg2.win 2).blk t).view.read (Elt Ideal) (whole (V c main_v55) (V c main_arg6)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx_facts t
  have ht : t.val < 5 := t.isLt
  funext j
  obtain ⟨r, q, rfl⟩ : ∃ (r : Fin 10000) (q : Fin 128), j = ix2 r q := ⟨j 0, j 1, eq_ix2 j⟩
  show k2_pay1 (iblk2 V c 0 t) (iblk2 V c 1 t) (ix2 r q) = whole (V c main_v55) (V c main_arg6) (((cfg2.win 2).blk t).view.emb (ix2 r q))
  have hout : ((cfg2.win 2).blk t).view.emb (ix2 r q) = ix2 (⟨t.val * 10000 + r.val, by omega⟩ : Fin 50000) q := by
    funext a; apply Fin.ext
    match a with
    | ⟨0, _⟩ => show win2_2.index t (0 : Fin 2) * 10000 + 1 * r.val = t.val * 10000 + r.val; omega
    | ⟨1, _⟩ => show win2_2.index t (1 : Fin 2) * 128 + 1 * q.val = q.val; omega
  rw [hout, whole_apply, pay_apply]
  refine Finset.sum_congr rfl fun k _ => ?_
  have hx : ((cfg2.win 0).blk t).view.emb (ix2 r k) = ix2 (⟨t.val * 10000 + r.val, by omega⟩ : Fin 50000) k := by
    funext a; apply Fin.ext
    match a with
    | ⟨0, _⟩ => show win2_0.index t (0 : Fin 2) * 10000 + 1 * r.val = t.val * 10000 + r.val; omega
    | ⟨1, _⟩ => show win2_0.index t (1 : Fin 2) * 128 + 1 * k.val = k.val; omega
  have hw : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have hx' : iblk2 V c 0 t (ix2 r k) = V c main_v55 (ix2 (⟨t.val * 10000 + r.val, by omega⟩ : Fin 50000) k) := congrArg (V c main_v55) hx
  have hw' : iblk2 V c 1 t (ix2 k q) = V c main_arg6 (ix2 k q) := congrArg (V c main_arg6) hw
  rw [hx', hw']

/-- An index of the output array is in point t's block iff each coordinate is in the block's range on its axis. -/
theorem mem_blk (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v56).slice (win2_2.rect t)).set ↔ _
  rw [View.set_slice_whole, Rect.mem_set_unit]
  exact Iff.rfl

/-- Every row lies in the block of the point its row number divided by 10000 names. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  let t : Fin cfg2.N := ⟨(i 0).val / 10000, by rw [hN]; omega⟩
  obtain ⟨e0, e1, e2, e3, e4, e5⟩ := idx_facts t
  have tv : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region the output array is the whole product of the two input arrays as the region finds them. -/
theorem final (c : Dev nD) :
    (dat2 V c).arrAt 2 cfg2.N = whole (V c main_v55) (V c main_arg6) :=
  (dat2 V c).arrAt_eq_of_cover 2 _ (fun t _ => flushed_eq V c t) cover

end Cert.KernelIdeal.Region2

end
-- ==== Proof.Region3.lean ====
/-
  Region 3 of the idealized kernel: bias and rectifier, five row blocks of 10000 rows each.

  At grid point t the body loads rows 10000 t … 10000 t + 9999 of the aggregated features and the whole bias
  vector, adds the bias to every row and takes the maximum with zero, and stores the result as the same rows of the
  output.  Entry (r, q) of a block depends only on the input at (10000 t + r, q) and on bias q, so the five blocks
  are the restrictions of one function of the whole arrays, and they tile the 50000 rows.
-/
import proofs.«163857_j88648124990263_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- What the output array holds after the region: max (a (r, q) + b q, 0) at every (r, q). -/
abbrev whole (a : FVec Ideal S50000x128 .f32) (b : FVec Ideal S128 .f32) : FVec Ideal S50000x128 .f32 :=
  fun i => max (a i + b (ix1 (i 1))) (Ideal.ofBits .f32 0x00000000#32)

/-- Entry (r, q) of a block: the loaded row entry plus bias q, clamped below at zero. -/
theorem pay_apply (x0 : Vec Ideal S10000x128 .f32) (x1 : Vec Ideal S128 .f32) (r : Fin 10000) (q : Fin 128) :
    k3_pay1 x0 x1 (ix2 r q) = max (x0 (ix2 r q) + x1 (ix1 q)) (Ideal.ofBits .f32 0x00000000#32) := by
  unfold k3_pay1
  rw [shapeCast_self]
  show max (x0 (ix2 r q) + broadcastTo S10000x128 (shapeCast S1x128 x1 shapeCasts_S128_S1x128) broadcasts_S1x128_S10000x128 (ix2 r q)) _ = _
  rw [broadcastTo_1b_ab_apply, shapeCast_a_1a_apply]
  rfl

/-- The printed index maps over the grid: the row-block windows sit at block (t, 0), the bias at block 0. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Point t writes back rows 10000 t … of that function of the arrays as the region finds them. -/
theorem flushed_eq (c : Dev nD) (t : Fin cfg3.N) :
    (dat3 V c).flushed 2 t = ((cfg3.win 2).blk t).view.read (Elt Ideal) (whole (V c main_v69) (V c main_arg7)) := by
  show (cfg3.win 2).cut (grid3.coords t) ((dat3 V c).after 2 t) = _
  rw [after3_2]
  unfold out3_2
  rw [View.canon_unit_zero hz]
  simp only [View.ld_unit_zero (S := S10000x128) hz, View.ld_unit_zero (S := S128) hz1]
  obtain ⟨e0, e1, e2, e4, e5⟩ := idx_facts t
  have ht : t.val < 5 := t.isLt
  funext j
  obtain ⟨r, q, rfl⟩ : ∃ (r : Fin 10000) (q : Fin 128), j = ix2 r q := ⟨j 0, j 1, eq_ix2 j⟩
  show k3_pay1 (iblk3 V c 0 t) (iblk3 V c 1 t) (ix2 r q) = whole (V c main_v69) (V c main_arg7) (((cfg3.win 2).blk t).view.emb (ix2 r q))
  have hout : ((cfg3.win 2).blk t).view.emb (ix2 r q) = ix2 (⟨t.val * 10000 + r.val, by omega⟩ : Fin 50000) q := by
    funext a; apply Fin.ext
    match a with
    | ⟨0, _⟩ => show win3_2.index t (0 : Fin 2) * 10000 + 1 * r.val = t.val * 10000 + r.val; omega
    | ⟨1, _⟩ => show win3_2.index t (1 : Fin 2) * 128 + 1 * q.val = q.val; omega
  have hx : ((cfg3.win 0).blk t).view.emb (ix2 r q) = ix2 (⟨t.val * 10000 + r.val, by omega⟩ : Fin 50000) q := by
    funext a; apply Fin.ext
    match a with
    | ⟨0, _⟩ => show win3_0.index t (0 : Fin 2) * 10000 + 1 * r.val = t.val * 10000 + r.val; omega
    | ⟨1, _⟩ => show win3_0.index t (1 : Fin 2) * 128 + 1 * q.val = q.val; omega
  have hb : ((cfg3.win 1).blk t).view.emb (ix1 q) = ix1 q := by
    funext a; apply Fin.ext
    match a with
    | ⟨0, _⟩ => show win3_1.index t (0 : Fin 1) * 128 + 1 * q.val = q.val; omega
  rw [hout, pay_apply]
  have hx' : iblk3 V c 0 t (ix2 r q) = V c main_v69 (ix2 (⟨t.val * 10000 + r.val, by omega⟩ : Fin 50000) q) := congrArg (V c main_v69) hx
  have hb' : iblk3 V c 1 t (ix1 q) = V c main_arg7 (ix1 q) := congrArg (V c main_arg7) hb
  rw [hx', hb']

/-- An index of the output array is in point t's block iff each coordinate is in the block's range on its axis. -/
theorem mem_blk (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v70).slice (win3_2.rect t)).set ↔ _
  rw [View.set_slice_whole, Rect.mem_set_unit]
  exact Iff.rfl

/-- Every row lies in the block of the point its row number divided by 10000 names. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 5 := N_3
  let t : Fin cfg3.N := ⟨(i 0).val / 10000, by rw [hN]; omega⟩
  obtain ⟨e0, e1, e2, e4, e5⟩ := idx_facts t
  have tv : t.val = (i 0).val / 10000 := rfl
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region the output array is that function of the two input arrays as the region finds them. -/
theorem final (c : Dev nD) :
    (dat3 V c).arrAt 2 cfg3.N = whole (V c main_v69) (V c main_arg7) :=
  (dat3 V c).arrAt_eq_of_cover 2 _ (fun t _ => flushed_eq V c t) cover

end Cert.KernelIdeal.Region3

end
-- ==== Proof.Region4.lean ====
/-
  Region 4 of the idealized kernel: the classifier, one grid point over whole arrays.

  The body loads the pooled features [512, 128], the weights [128, 10] and the bias [10] whole (the changes of float
  format are the identity on exact values), multiplies on the matrix unit into a zero accumulator, adds the bias to
  every row and stores the [512, 10] result whole.  Entry (r, q) is the sum over k of pooled (r, k) * weights (k, q),
  plus bias q.
-/
import proofs.«163857_j88648124990263_1_alg».proof.Proof.Gen.KernelIdeal.Frame
import proofs.«163857_j88648124990263_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- What the output array holds after the region: the product of the whole arrays plus the bias on every row. -/
abbrev whole (x : FVec Ideal S512x128 .f32) (w : FVec Ideal S128x10 .f32) (b : FVec Ideal S10 .f32) : FVec Ideal S512x10 .f32 :=
  fun i => Host.dotGeneral (F := Ideal) (DotDims.plain 512 128 10) none x w i + b (ix1 (i 1))

/-- Entry (r, q) of it. -/
theorem whole_apply (x : FVec Ideal S512x128 .f32) (w : FVec Ideal S128x10 .f32) (b : FVec Ideal S10 .f32) (r : Fin 512) (q : Fin 10) :
    whole x w b (ix2 r q) = (∑ k : Fin 128, x (ix2 r k) * w (ix2 k q)) + b (ix1 q) := by
  show Host.dotGeneral (F := Ideal) (DotDims.plain 512 128 10) none x w (ix2 r q) + b (ix1 q) = _
  simp only [Host.dotGeneral]
  rw [PlainDot.dotGeneral_apply (M := 512) (K := 128) (N := 10) none _ x w r q]

/-- Entry (r, q) of what the body stores. -/
theorem pay_apply (x0 : Vec Ideal S512x128 .f32) (x1 : Vec Ideal S128x10 .f32) (x2 : Vec Ideal S10 .f32) (r : Fin 512) (q : Fin 10) :
    k4_pay1 x0 x1 x2 (ix2 r q) = (∑ k : Fin 128, x0 (ix2 r k) * x1 (ix2 k q)) + x2 (ix1 q) := by
  unfold k4_pay1
  rw [shapeCast_self]
  show _ + broadcastTo S512x10 (shapeCast S1x10 x2 shapeCasts_S10_S1x10) broadcasts_S1x10_S512x10 (ix2 r q) = _
  rw [broadcastTo_1b_ab_apply, shapeCast_a_1a_apply]
  exact congrArg (· + x2 (ix1 q)) (PlainDot.matmul_zero_apply (M := 512) (K := 128) (N := 10) none
    (truncf .bf16 x0 bitsLt_bf16_f32) (truncf .bf16 x1 bitsLt_bf16_f32) r q)

/-- The printed index maps at the one grid point: every window sits at block 0 on every axis. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0 :=
  (by decide +kernel : ∀ t : Fin grid4.N, _)

/-- The one point writes back that function of the arrays as the region finds them. -/
theorem flushed_eq (c : Dev nD) (t : Fin cfg4.N) :
    (dat4 V c).flushed 3 t = ((cfg4.win 3).blk t).view.read (Elt Ideal) (whole (V c main_v82) (V c main_arg8) (V c main_arg9)) := by
  show (cfg4.win 3).cut (grid4.coords t) ((dat4 V c).after 3 t) = _
  rw [after4_3]
  unfold out4_3
  rw [View.canon_unit_zero hz]
  simp only [View.ld_unit_zero (S := S512x128) hz, View.ld_unit_zero (S := S128x10) hz, View.ld_unit_zero (S := S10) hz1]
  obtain ⟨e0, e1, e2, e3, e4, e5, e6⟩ := idx_facts t
  funext j
  obtain ⟨r, q, rfl⟩ : ∃ (r : Fin 512) (q : Fin 10), j = ix2 r q := ⟨j 0, j 1, eq_ix2 j⟩
  show k4_pay1 (iblk4 V c 0 t) (iblk4 V c 1 t) (iblk4 V c 2 t) (ix2 r q) = whole (V c main_v82) (V c main_arg8) (V c main_arg9) (((cfg4.win 3).blk t).view.emb (ix2 r q))
  have hout : ((cfg4.win 3).blk t).view.emb (ix2 r q) = ix2 r q := by
    funext a; apply Fin.ext
    match a with
    | ⟨0, _⟩ => show win4_3.index t (0 : Fin 2) * 512 + 1 * r.val = r.val; omega
    | ⟨1, _⟩ => show win4_3.index t (1 : Fin 2) * 10 + 1 * q.val = q.val; omega
  have hb : ((cfg4.win 2).blk t).view.emb (ix1 q) = ix1 q := by
    funext a; apply Fin.ext
    match a with
    | ⟨0, _⟩ => show win4_2.index t (0 : Fin 1) * 10 + 1 * q.val = q.val; omega
  have hb' : iblk4 V c 2 t (ix1 q) = V c main_arg9 (ix1 q) := congrArg (V c main_arg9) hb
  rw [hout, whole_apply, pay_apply, hb']
  refine congrArg (· + V c main_arg9 (ix1 q)) (Finset.sum_congr rfl fun k _ => ?_)
  have hx : ((cfg4.win 0).blk t).view.emb (ix2 r k) = ix2 r k := by
    funext a; apply Fin.ext
    match a with
    | ⟨0, _⟩ => show win4_0.index t (0 : Fin 2) * 512 + 1 * r.val = r.val; omega
    | ⟨1, _⟩ => show win4_0.index t (1 : Fin 2) * 128 + 1 * k.val = k.val; omega
  have hw : ((cfg4.win 1).blk t).view.emb (ix2 k q) = ix2 k q := by
    funext a; apply Fin.ext
    match a with
    | ⟨0, _⟩ => show win4_1.index t (0 : Fin 2) * 128 + 1 * k.val = k.val; omega
    | ⟨1, _⟩ => show win4_1.index t (1 : Fin 2) * 10 + 1 * q.val = q.val; omega
  have hx' : iblk4 V c 0 t (ix2 r k) = V c main_v82 (ix2 r k) := congrArg (V c main_v82) hx
  have hw' : iblk4 V c 1 t (ix2 k q) = V c main_arg8 (ix2 k q) := congrArg (V c main_arg8) hw
  rw [hx', hw']

/-- An index of the output array is in the point's block iff each coordinate is in the block's range on its axis. -/
theorem mem_blk (t : Fin cfg4.N) (i : S512x10.Idx) :
    i ∈ ((cfg4.win 3).blk t).view.set ↔ ∀ a : Fin 2, win4_3.index t a * S512x10.size a ≤ (i a).val ∧ (i a).val < win4_3.index t a * S512x10.size a + S512x10.size a := by
  show i ∈ ((View.whole main_v83).slice (win4_3.rect t)).set ↔ _
  rw [View.set_slice_whole, Rect.mem_set_unit]
  exact Iff.rfl

/-- The one block is the whole array. -/
theorem cover (i : S512x10.Idx) :
    ∃ t : Fin cfg4.N, (cfg4.win 3).flush t = true ∧ i ∈ ((cfg4.win 3).blk t).view.set := by
  have hi0 : (i 0).val < 512 := (i 0).isLt
  have hi1 : (i 1).val < 10 := (i 1).isLt
  obtain ⟨e0, e1, e2, e3, e4, e5, e6⟩ := idx_facts t4_0
  refine ⟨t4_0, flush4_3 t4_0, ?_⟩
  rw [mem_blk]
  intro a
  match a with
  | ⟨0, _⟩ => show win4_3.index t4_0 (0 : Fin 2) * 512 ≤ (i 0).val ∧ (i 0).val < win4_3.index t4_0 (0 : Fin 2) * 512 + 512; omega
  | ⟨1, _⟩ => show win4_3.index t4_0 (1 : Fin 2) * 10 ≤ (i 1).val ∧ (i 1).val < win4_3.index t4_0 (1 : Fin 2) * 10 + 10; omega

/-- After the region the output array is that function of the three input arrays as the region finds them. -/
theorem final (c : Dev nD) :
    (dat4 V c).arrAt 3 cfg4.N = whole (V c main_v82) (V c main_arg8) (V c main_arg9) :=
  (dat4 V c).arrAt_eq_of_cover 3 _ (fun t _ => flushed_eq V c t) cover

end Cert.KernelIdeal.Region4

end
-- ==== Proof.Shared.lean ====
/-
  The host computations the two programs share, as functions of the one array that differs between them.

  Both programs gather node features along the edges, scale each gathered row by its edge's normalisation, and
  scatter-add the rows back onto the destination nodes (the aggregation); and both sum the node features of each graph,
  divide by the graph's node count (at least one) to get the mean (the pooling).  The edge lists, the normalisation and
  the counts depend only on the integer arguments; the node features are the one operand that the kernel computes in
  its own regions and the reference on the host.  Each computation is stated here once, as a function of that operand,
  in the very operations the reference's stages are made of, so that neither program's proof ever opens a gather or a
  scatter.
-/
import proofs.«163857_j88648124990263_1_alg».proof.Proof.Gen.ReferenceIdeal.Read

noncomputable section

namespace Cert.ReferenceIdeal.Shared

open Cert.ReferenceIdeal Cert.ReferenceIdeal.Gen Cert.ReferenceIdeal.Read Idealize.ShloMosaic Idealize.ShloMosaic.TcCoe

/-- The aggregation over the edge list (with self loops) that the integer argument `x1` spells: gather the rows of
    `h` at the sources, scale by the edge normalisation, scatter-add at the destinations into zeros. -/
def agg (x1 : (⟨S2x800000, .i32⟩ : BufTy).Contents (Elt Ideal)) (h : FVec Ideal S50000x128 .f32) : FVec Ideal S50000x128 .f32 :=
  Host.scatterAdd scatter_S50000x128_S850000x1_S850000x128_1_0_0_1 (val_main_v52 (F := Ideal)) (val_main_v53 (F := Ideal) x1)
    (mulf (Host.gather gather_S50000x128_S850000x1_S850000x128_1_0_n_n_0_1_1128 h (val_main_v47 (F := Ideal) x1)) (val_main_v50 (F := Ideal) x1))

/-- The mean pooling over the graph assignment `x2`: scatter-add the rows of `h` at their graphs into zeros, divide
    each graph's row by its node count clamped below at one. -/
def pool (x2 : (⟨S50000, .i32⟩ : BufTy).Contents (Elt Ideal)) (h : FVec Ideal S50000x128 .f32) : FVec Ideal S512x128 .f32 :=
  Host.divf (Host.scatterAdd scatter_S512x128_S50000x1_S50000x128_1_0_0_1 (val_main_v77 (F := Ideal)) (val_main_v78 (F := Ideal) x2) h)
    (val_main_v87 (F := Ideal) x2)

variable (x0 : (⟨S50000, .i32⟩ : BufTy).Contents (Elt Ideal)) (x1 : (⟨S2x800000, .i32⟩ : BufTy).Contents (Elt Ideal))
  (x2 : (⟨S50000, .i32⟩ : BufTy).Contents (Elt Ideal)) (x3 : (⟨S10000x128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))

/-- The reference's first aggregation is `agg` of its first dense product. -/
theorem ref_v54 : val_main_v54 (F := Ideal) x0 x1 x3 x4 = agg x1 (val_main_v41 (F := Ideal) x0 x3 x4) := rfl

/-- The reference's second aggregation is `agg` of its second dense product (the same edge list and normalisation,
    recomputed by the program under other names). -/
theorem ref_v72 : val_main_v72 (F := Ideal) x0 x1 x3 x4 x5 x6 = agg x1 (val_main_v59 (F := Ideal) x0 x1 x3 x4 x5 x6) := rfl

/-- The reference's pooled features are `pool` of its second layer's output. -/
theorem ref_v88 : val_main_v88 (F := Ideal) x0 x1 x2 x3 x4 x5 x6 x7 = pool x2 (val_main_v76 (F := Ideal) x0 x1 x3 x4 x5 x6 x7) := rfl

end Cert.ReferenceIdeal.Shared

end
-- ==== Proof.Chain.lean ====
/-
  The idealized kernel's buffers at each segment boundary, as values.

  The program runs: a first stretch of host operations (the embedding lookup, the edge lists with self loops, the edge
  normalisation), the first dense product (region 0), a host stretch (the aggregation), bias and rectifier (region 1),
  the second dense product (region 2), a host stretch (the aggregation again), bias and rectifier (region 3), a host
  stretch (the mean pooling), and the classifier (region 4).  At every boundary the few buffers a later segment still
  reads are named here as functions of the ten argument arrays: a buffer a host stretch writes is the stretch's
  operations applied to the values before it; a region's output array is the function of its input arrays that the
  region's own module proves; every other buffer holds what it held before the segment.
-/
import proofs.«163857_j88648124990263_1_alg».proof.Proof.Gen.KernelIdeal.Frame
import proofs.«163857_j88648124990263_1_alg».proof.Proof.Region0
import proofs.«163857_j88648124990263_1_alg».proof.Proof.Region1
import proofs.«163857_j88648124990263_1_alg».proof.Proof.Region2
import proofs.«163857_j88648124990263_1_alg».proof.Proof.Region3
import proofs.«163857_j88648124990263_1_alg».proof.Proof.Region4
import proofs.«163857_j88648124990263_1_alg».proof.Proof.Shared

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo (after_cons after_nil nullary_result' unary_result' binary_result' ternary_result' quaternary_result' reshape_result' nary4_result' nary_result'
      unaryIndexed_result' binaryIndexed_result'
      nullary_result_ne' unary_result_ne' binary_result_ne' ternary_result_ne' quaternary_result_ne' reshape_result_ne'
      nary_result_ne' unaryIndexed_result_ne' binaryIndexed_result_ne')
open Cert.ReferenceIdeal.Shared (agg pool)

variable (m : (ℓ : Loc nD τ sig) → Buf (Elt Ideal) ℓ) (ρ : Dev nD → PrngReg) (c : Dev nD)

/-! ## The argument arrays -/

abbrev a0 : (⟨S50000, .i32⟩ : BufTy).Contents (Elt Ideal) := m ((c : Thread nD τ).loc main_arg0)
abbrev a1 : (⟨S2x800000, .i32⟩ : BufTy).Contents (Elt Ideal) := m ((c : Thread nD τ).loc main_arg1)
abbrev a2 : (⟨S50000, .i32⟩ : BufTy).Contents (Elt Ideal) := m ((c : Thread nD τ).loc main_arg2)
abbrev a3 : (⟨S10000x128, .f32⟩ : BufTy).Contents (Elt Ideal) := m ((c : Thread nD τ).loc main_arg3)
abbrev a4 : (⟨S128x128, .f32⟩ : BufTy).Contents (Elt Ideal) := m ((c : Thread nD τ).loc main_arg4)
abbrev a5 : (⟨S128, .f32⟩ : BufTy).Contents (Elt Ideal) := m ((c : Thread nD τ).loc main_arg5)
abbrev a6 : (⟨S128x128, .f32⟩ : BufTy).Contents (Elt Ideal) := m ((c : Thread nD τ).loc main_arg6)
abbrev a7 : (⟨S128, .f32⟩ : BufTy).Contents (Elt Ideal) := m ((c : Thread nD τ).loc main_arg7)
abbrev a8 : (⟨S128x10, .f32⟩ : BufTy).Contents (Elt Ideal) := m ((c : Thread nD τ).loc main_arg8)
abbrev a9 : (⟨S10, .f32⟩ : BufTy).Contents (Elt Ideal) := m ((c : Thread nD τ).loc main_arg9)

/-- A buffer that no operation of a host stretch writes holds after the stretch what it held before. -/
macro "host_keep " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## After the first host stretch -/

theorem w1_v13 : W1 m ρ c (Proc.devRef .tc main_v13) = (Cert.ReferenceIdeal.Read.val_main_v13 (F := Ideal) (a0 m c) (a3 m c)) := by
  show StableHlo.after hostOps0 (W0 m ρ c) (Proc.devRef .tc main_v13) = _
  after_results_simp <;> rfl
theorem w1_v17 : W1 m ρ c (Proc.devRef .tc main_v17) = (Cert.ReferenceIdeal.Read.val_main_v17 (F := Ideal) (a1 m c)) := by
  show StableHlo.after hostOps0 (W0 m ρ c) (Proc.devRef .tc main_v17) = _
  after_results_simp <;> rfl
theorem w1_v20 : W1 m ρ c (Proc.devRef .tc main_v20) = (Cert.ReferenceIdeal.Read.val_main_v20 (F := Ideal) (a1 m c)) := by
  show StableHlo.after hostOps0 (W0 m ρ c) (Proc.devRef .tc main_v20) = _
  after_results_simp <;> rfl
theorem w1_v40 : W1 m ρ c (Proc.devRef .tc main_v40) = (Cert.ReferenceIdeal.Read.val_main_v40 (F := Ideal) (a1 m c)) := by
  show StableHlo.after hostOps0 (W0 m ρ c) (Proc.devRef .tc main_v40) = _
  after_results_simp <;> rfl
theorem w1_arg2 : W1 m ρ c (Proc.devRef .tc main_arg2) = a2 m c :=
  (show W1 m ρ c (Proc.devRef .tc main_arg2) = W0 m ρ c (Proc.devRef .tc main_arg2) by host_keep hostOps0).trans rfl
theorem w1_arg4 : W1 m ρ c (Proc.devRef .tc main_arg4) = a4 m c :=
  (show W1 m ρ c (Proc.devRef .tc main_arg4) = W0 m ρ c (Proc.devRef .tc main_arg4) by host_keep hostOps0).trans rfl
theorem w1_arg5 : W1 m ρ c (Proc.devRef .tc main_arg5) = a5 m c :=
  (show W1 m ρ c (Proc.devRef .tc main_arg5) = W0 m ρ c (Proc.devRef .tc main_arg5) by host_keep hostOps0).trans rfl
theorem w1_arg6 : W1 m ρ c (Proc.devRef .tc main_arg6) = a6 m c :=
  (show W1 m ρ c (Proc.devRef .tc main_arg6) = W0 m ρ c (Proc.devRef .tc main_arg6) by host_keep hostOps0).trans rfl
theorem w1_arg7 : W1 m ρ c (Proc.devRef .tc main_arg7) = a7 m c :=
  (show W1 m ρ c (Proc.devRef .tc main_arg7) = W0 m ρ c (Proc.devRef .tc main_arg7) by host_keep hostOps0).trans rfl
theorem w1_arg8 : W1 m ρ c (Proc.devRef .tc main_arg8) = a8 m c :=
  (show W1 m ρ c (Proc.devRef .tc main_arg8) = W0 m ρ c (Proc.devRef .tc main_arg8) by host_keep hostOps0).trans rfl
theorem w1_arg9 : W1 m ρ c (Proc.devRef .tc main_arg9) = a9 m c :=
  (show W1 m ρ c (Proc.devRef .tc main_arg9) = W0 m ρ c (Proc.devRef .tc main_arg9) by host_keep hostOps0).trans rfl

/-! ## After region 0: the first dense product -/

theorem w2_v41 : W2 m ρ c (Proc.devRef .tc main_v41) = (Region0.whole (Cert.ReferenceIdeal.Read.val_main_v13 (F := Ideal) (a0 m c) (a3 m c)) (a4 m c)) :=
  (W2_arr m ρ c 2).trans ((Region0.final (V1 m ρ) c).trans (congrArg₂ Region0.whole (w1_v13 m ρ c) (w1_arg4 m ρ c)))
theorem w2_v17 : W2 m ρ c (Proc.devRef .tc main_v17) = (Cert.ReferenceIdeal.Read.val_main_v17 (F := Ideal) (a1 m c)) :=
  (W2_of_ne m ρ c main_v17 (by decide)).trans (w1_v17 m ρ c)
theorem w2_v20 : W2 m ρ c (Proc.devRef .tc main_v20) = (Cert.ReferenceIdeal.Read.val_main_v20 (F := Ideal) (a1 m c)) :=
  (W2_of_ne m ρ c main_v20 (by decide)).trans (w1_v20 m ρ c)
theorem w2_v40 : W2 m ρ c (Proc.devRef .tc main_v40) = (Cert.ReferenceIdeal.Read.val_main_v40 (F := Ideal) (a1 m c)) :=
  (W2_of_ne m ρ c main_v40 (by decide)).trans (w1_v40 m ρ c)
theorem w2_arg2 : W2 m ρ c (Proc.devRef .tc main_arg2) = a2 m c :=
  (W2_of_ne m ρ c main_arg2 (by decide)).trans (w1_arg2 m ρ c)
theorem w2_arg5 : W2 m ρ c (Proc.devRef .tc main_arg5) = a5 m c :=
  (W2_of_ne m ρ c main_arg5 (by decide)).trans (w1_arg5 m ρ c)
theorem w2_arg6 : W2 m ρ c (Proc.devRef .tc main_arg6) = a6 m c :=
  (W2_of_ne m ρ c main_arg6 (by decide)).trans (w1_arg6 m ρ c)
theorem w2_arg7 : W2 m ρ c (Proc.devRef .tc main_arg7) = a7 m c :=
  (W2_of_ne m ρ c main_arg7 (by decide)).trans (w1_arg7 m ρ c)
theorem w2_arg8 : W2 m ρ c (Proc.devRef .tc main_arg8) = a8 m c :=
  (W2_of_ne m ρ c main_arg8 (by decide)).trans (w1_arg8 m ρ c)
theorem w2_arg9 : W2 m ρ c (Proc.devRef .tc main_arg9) = a9 m c :=
  (W2_of_ne m ρ c main_arg9 (by decide)).trans (w1_arg9 m ρ c)

/-! ## After the second host stretch: the first aggregation -/

theorem w3_v54 : W3 m ρ c (Proc.devRef .tc main_v54) = (agg (a1 m c) (Region0.whole (Cert.ReferenceIdeal.Read.val_main_v13 (F := Ideal) (a0 m c) (a3 m c)) (a4 m c))) := by
  show StableHlo.after hostOps1 (W2 m ρ c) (Proc.devRef .tc main_v54) = _
  after_results_simp
  rw [w2_v41 m ρ c, w2_v17 m ρ c, w2_v20 m ρ c, w2_v40 m ρ c]
  rfl
theorem w3_v17 : W3 m ρ c (Proc.devRef .tc main_v17) = (Cert.ReferenceIdeal.Read.val_main_v17 (F := Ideal) (a1 m c)) :=
  (show W3 m ρ c (Proc.devRef .tc main_v17) = W2 m ρ c (Proc.devRef .tc main_v17) by host_keep hostOps1).trans (w2_v17 m ρ c)
theorem w3_v20 : W3 m ρ c (Proc.devRef .tc main_v20) = (Cert.ReferenceIdeal.Read.val_main_v20 (F := Ideal) (a1 m c)) :=
  (show W3 m ρ c (Proc.devRef .tc main_v20) = W2 m ρ c (Proc.devRef .tc main_v20) by host_keep hostOps1).trans (w2_v20 m ρ c)
theorem w3_v40 : W3 m ρ c (Proc.devRef .tc main_v40) = (Cert.ReferenceIdeal.Read.val_main_v40 (F := Ideal) (a1 m c)) :=
  (show W3 m ρ c (Proc.devRef .tc main_v40) = W2 m ρ c (Proc.devRef .tc main_v40) by host_keep hostOps1).trans (w2_v40 m ρ c)
theorem w3_arg2 : W3 m ρ c (Proc.devRef .tc main_arg2) = a2 m c :=
  (show W3 m ρ c (Proc.devRef .tc main_arg2) = W2 m ρ c (Proc.devRef .tc main_arg2) by host_keep hostOps1).trans (w2_arg2 m ρ c)
theorem w3_arg5 : W3 m ρ c (Proc.devRef .tc main_arg5) = a5 m c :=
  (show W3 m ρ c (Proc.devRef .tc main_arg5) = W2 m ρ c (Proc.devRef .tc main_arg5) by host_keep hostOps1).trans (w2_arg5 m ρ c)
theorem w3_arg6 : W3 m ρ c (Proc.devRef .tc main_arg6) = a6 m c :=
  (show W3 m ρ c (Proc.devRef .tc main_arg6) = W2 m ρ c (Proc.devRef .tc main_arg6) by host_keep hostOps1).trans (w2_arg6 m ρ c)
theorem w3_arg7 : W3 m ρ c (Proc.devRef .tc main_arg7) = a7 m c :=
  (show W3 m ρ c (Proc.devRef .tc main_arg7) = W2 m ρ c (Proc.devRef .tc main_arg7) by host_keep hostOps1).trans (w2_arg7 m ρ c)
theorem w3_arg8 : W3 m ρ c (Proc.devRef .tc main_arg8) = a8 m c :=
  (show W3 m ρ c (Proc.devRef .tc main_arg8) = W2 m ρ c (Proc.devRef .tc main_arg8) by host_keep hostOps1).trans (w2_arg8 m ρ c)
theorem w3_arg9 : W3 m ρ c (Proc.devRef .tc main_arg9) = a9 m c :=
  (show W3 m ρ c (Proc.devRef .tc main_arg9) = W2 m ρ c (Proc.devRef .tc main_arg9) by host_keep hostOps1).trans (w2_arg9 m ρ c)

/-! ## After region 1 (bias and rectifier) and region 2 (the second dense product) -/

theorem w4_v55 : W4 m ρ c (Proc.devRef .tc main_v55) = (Region1.whole (agg (a1 m c) (Region0.whole (Cert.ReferenceIdeal.Read.val_main_v13 (F := Ideal) (a0 m c) (a3 m c)) (a4 m c))) (a5 m c)) :=
  (W4_arr m ρ c 2).trans ((Region1.final (V3 m ρ) c).trans (congrArg₂ Region1.whole (w3_v54 m ρ c) (w3_arg5 m ρ c)))
theorem w4_v17 : W4 m ρ c (Proc.devRef .tc main_v17) = (Cert.ReferenceIdeal.Read.val_main_v17 (F := Ideal) (a1 m c)) :=
  (W4_of_ne m ρ c main_v17 (by decide)).trans (w3_v17 m ρ c)
theorem w4_v20 : W4 m ρ c (Proc.devRef .tc main_v20) = (Cert.ReferenceIdeal.Read.val_main_v20 (F := Ideal) (a1 m c)) :=
  (W4_of_ne m ρ c main_v20 (by decide)).trans (w3_v20 m ρ c)
theorem w4_v40 : W4 m ρ c (Proc.devRef .tc main_v40) = (Cert.ReferenceIdeal.Read.val_main_v40 (F := Ideal) (a1 m c)) :=
  (W4_of_ne m ρ c main_v40 (by decide)).trans (w3_v40 m ρ c)
theorem w4_arg2 : W4 m ρ c (Proc.devRef .tc main_arg2) = a2 m c :=
  (W4_of_ne m ρ c main_arg2 (by decide)).trans (w3_arg2 m ρ c)
theorem w4_arg6 : W4 m ρ c (Proc.devRef .tc main_arg6) = a6 m c :=
  (W4_of_ne m ρ c main_arg6 (by decide)).trans (w3_arg6 m ρ c)
theorem w4_arg7 : W4 m ρ c (Proc.devRef .tc main_arg7) = a7 m c :=
  (W4_of_ne m ρ c main_arg7 (by decide)).trans (w3_arg7 m ρ c)
theorem w4_arg8 : W4 m ρ c (Proc.devRef .tc main_arg8) = a8 m c :=
  (W4_of_ne m ρ c main_arg8 (by decide)).trans (w3_arg8 m ρ c)
theorem w4_arg9 : W4 m ρ c (Proc.devRef .tc main_arg9) = a9 m c :=
  (W4_of_ne m ρ c main_arg9 (by decide)).trans (w3_arg9 m ρ c)
theorem w5_v56 : W5 m ρ c (Proc.devRef .tc main_v56) = (Region2.whole (Region1.whole (agg (a1 m c) (Region0.whole (Cert.ReferenceIdeal.Read.val_main_v13 (F := Ideal) (a0 m c) (a3 m c)) (a4 m c))) (a5 m c)) (a6 m c)) :=
  (W5_arr m ρ c 2).trans ((Region2.final (V4 m ρ) c).trans (congrArg₂ Region2.whole (w4_v55 m ρ c) (w4_arg6 m ρ c)))
theorem w5_v17 : W5 m ρ c (Proc.devRef .tc main_v17) = (Cert.ReferenceIdeal.Read.val_main_v17 (F := Ideal) (a1 m c)) :=
  (W5_of_ne m ρ c main_v17 (by decide)).trans (w4_v17 m ρ c)
theorem w5_v20 : W5 m ρ c (Proc.devRef .tc main_v20) = (Cert.ReferenceIdeal.Read.val_main_v20 (F := Ideal) (a1 m c)) :=
  (W5_of_ne m ρ c main_v20 (by decide)).trans (w4_v20 m ρ c)
theorem w5_v40 : W5 m ρ c (Proc.devRef .tc main_v40) = (Cert.ReferenceIdeal.Read.val_main_v40 (F := Ideal) (a1 m c)) :=
  (W5_of_ne m ρ c main_v40 (by decide)).trans (w4_v40 m ρ c)
theorem w5_arg2 : W5 m ρ c (Proc.devRef .tc main_arg2) = a2 m c :=
  (W5_of_ne m ρ c main_arg2 (by decide)).trans (w4_arg2 m ρ c)
theorem w5_arg7 : W5 m ρ c (Proc.devRef .tc main_arg7) = a7 m c :=
  (W5_of_ne m ρ c main_arg7 (by decide)).trans (w4_arg7 m ρ c)
theorem w5_arg8 : W5 m ρ c (Proc.devRef .tc main_arg8) = a8 m c :=
  (W5_of_ne m ρ c main_arg8 (by decide)).trans (w4_arg8 m ρ c)
theorem w5_arg9 : W5 m ρ c (Proc.devRef .tc main_arg9) = a9 m c :=
  (W5_of_ne m ρ c main_arg9 (by decide)).trans (w4_arg9 m ρ c)

/-! ## After the third host stretch: the second aggregation -/

theorem w6_v69 : W6 m ρ c (Proc.devRef .tc main_v69) = (agg (a1 m c) (Region2.whole (Region1.whole (agg (a1 m c) (Region0.whole (Cert.ReferenceIdeal.Read.val_main_v13 (F := Ideal) (a0 m c) (a3 m c)) (a4 m c))) (a5 m c)) (a6 m c))) := by
  show StableHlo.after hostOps3 (W5 m ρ c) (Proc.devRef .tc main_v69) = _
  after_results_simp
  rw [w5_v56 m ρ c, w5_v17 m ρ c, w5_v20 m ρ c, w5_v40 m ρ c]
  rfl
theorem w6_arg2 : W6 m ρ c (Proc.devRef .tc main_arg2) = a2 m c :=
  (show W6 m ρ c (Proc.devRef .tc main_arg2) = W5 m ρ c (Proc.devRef .tc main_arg2) by host_keep hostOps3).trans (w5_arg2 m ρ c)
theorem w6_arg7 : W6 m ρ c (Proc.devRef .tc main_arg7) = a7 m c :=
  (show W6 m ρ c (Proc.devRef .tc main_arg7) = W5 m ρ c (Proc.devRef .tc main_arg7) by host_keep hostOps3).trans (w5_arg7 m ρ c)
theorem w6_arg8 : W6 m ρ c (Proc.devRef .tc main_arg8) = a8 m c :=
  (show W6 m ρ c (Proc.devRef .tc main_arg8) = W5 m ρ c (Proc.devRef .tc main_arg8) by host_keep hostOps3).trans (w5_arg8 m ρ c)
theorem w6_arg9 : W6 m ρ c (Proc.devRef .tc main_arg9) = a9 m c :=
  (show W6 m ρ c (Proc.devRef .tc main_arg9) = W5 m ρ c (Proc.devRef .tc main_arg9) by host_keep hostOps3).trans (w5_arg9 m ρ c)

/-! ## After region 3 (bias and rectifier) -/

theorem w7_v70 : W7 m ρ c (Proc.devRef .tc main_v70) = (Region3.whole (agg (a1 m c) (Region2.whole (Region1.whole (agg (a1 m c) (Region0.whole (Cert.ReferenceIdeal.Read.val_main_v13 (F := Ideal) (a0 m c) (a3 m c)) (a4 m c))) (a5 m c)) (a6 m c))) (a7 m c)) :=
  (W7_arr m ρ c 2).trans ((Region3.final (V6 m ρ) c).trans (congrArg₂ Region3.whole (w6_v69 m ρ c) (w6_arg7 m ρ c)))
theorem w7_arg2 : W7 m ρ c (Proc.devRef .tc main_arg2) = a2 m c :=
  (W7_of_ne m ρ c main_arg2 (by decide)).trans (w6_arg2 m ρ c)
theorem w7_arg8 : W7 m ρ c (Proc.devRef .tc main_arg8) = a8 m c :=
  (W7_of_ne m ρ c main_arg8 (by decide)).trans (w6_arg8 m ρ c)
theorem w7_arg9 : W7 m ρ c (Proc.devRef .tc main_arg9) = a9 m c :=
  (W7_of_ne m ρ c main_arg9 (by decide)).trans (w6_arg9 m ρ c)

/-! ## After the fourth host stretch: the mean pooling -/

theorem w8_v82 : W8 m ρ c (Proc.devRef .tc main_v82) = (pool (a2 m c) (Region3.whole (agg (a1 m c) (Region2.whole (Region1.whole (agg (a1 m c) (Region0.whole (Cert.ReferenceIdeal.Read.val_main_v13 (F := Ideal) (a0 m c) (a3 m c)) (a4 m c))) (a5 m c)) (a6 m c))) (a7 m c))) := by
  show StableHlo.after hostOps4 (W7 m ρ c) (Proc.devRef .tc main_v82) = _
  after_results_simp
  rw [w7_v70 m ρ c, w7_arg2 m ρ c]
  rfl
theorem w8_arg8 : W8 m ρ c (Proc.devRef .tc main_arg8) = a8 m c :=
  (show W8 m ρ c (Proc.devRef .tc main_arg8) = W7 m ρ c (Proc.devRef .tc main_arg8) by host_keep hostOps4).trans (w7_arg8 m ρ c)
theorem w8_arg9 : W8 m ρ c (Proc.devRef .tc main_arg9) = a9 m c :=
  (show W8 m ρ c (Proc.devRef .tc main_arg9) = W7 m ρ c (Proc.devRef .tc main_arg9) by host_keep hostOps4).trans (w7_arg9 m ρ c)

/-! ## After region 4: the classifier's output -/

/-- The kernel's result as one function of the argument arrays: the five regions' functions composed with the shared
    aggregation and pooling. -/
abbrev out : FVec Ideal S512x10 .f32 := (Region4.whole (pool (a2 m c) (Region3.whole (agg (a1 m c) (Region2.whole (Region1.whole (agg (a1 m c) (Region0.whole (Cert.ReferenceIdeal.Read.val_main_v13 (F := Ideal) (a0 m c) (a3 m c)) (a4 m c))) (a5 m c)) (a6 m c))) (a7 m c))) (a8 m c) (a9 m c))

/-- What the result array holds when the program returns. -/
theorem result : (dat4 (V8 m ρ) c).arrAt 3 cfg4.N = out m c :=
  (Region4.final (V8 m ρ) c).trans (by rw [show V8 m ρ c main_v82 = _ from w8_v82 m ρ c, show V8 m ρ c main_arg8 = _ from w8_arg8 m ρ c, show V8 m ρ c main_arg9 = _ from w8_arg9 m ρ c])

end Cert.KernelIdeal.Chain

end
-- ==== Proof.Bridge.lean ====
/-
  The reference's stages and the kernel's regions are the same functions.

  Where the kernel runs a region, the reference runs host operations: a `dot_general` for each dense product, a
  broadcast, an add and a maximum with zero for each bias-and-rectifier, a `dot_general`, a broadcast and an add for
  the classifier.  At exact values each pair agrees entry by entry: a product entry is the same sum over the
  contracted axis whether the matrix unit or the host computes it; the bias broadcast over rows reads bias q at
  (r, q).  Between those stages both programs apply the shared aggregation and pooling to whatever the previous stage
  produced, so the reference's result is the composition of the kernel's region functions and the shared host
  functions — no law of the extended reals beyond reading both sides at an index is used, and finiteness of the inputs
  plays no part.
-/
import proofs.«163857_j88648124990263_1_alg».proof.Proof.Region0
import proofs.«163857_j88648124990263_1_alg».proof.Proof.Region1
import proofs.«163857_j88648124990263_1_alg».proof.Proof.Region2
import proofs.«163857_j88648124990263_1_alg».proof.Proof.Region3
import proofs.«163857_j88648124990263_1_alg».proof.Proof.Region4
import proofs.«163857_j88648124990263_1_alg».proof.Proof.Shared

noncomputable section

namespace Cert.Bridge

open Cert.ReferenceIdeal Cert.ReferenceIdeal.Gen Cert.ReferenceIdeal.Read Cert.ReferenceIdeal.Shared
open Idealize.ShloMosaic Idealize.ShloMosaic.TcCoe Idealize.ShloMosaic.ValueIdx

variable (x0 : (⟨S50000, .i32⟩ : BufTy).Contents (Elt Ideal)) (x1 : (⟨S2x800000, .i32⟩ : BufTy).Contents (Elt Ideal))
  (x2 : (⟨S50000, .i32⟩ : BufTy).Contents (Elt Ideal)) (x3 : (⟨S10000x128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x10, .f32⟩ : BufTy).Contents (Elt Ideal)) (x9 : (⟨S10, .f32⟩ : BufTy).Contents (Elt Ideal))

/-- The first dense product: the host's `dot_general` is the product the kernel's region 0 leaves. -/
theorem ref_v41 : val_main_v41 (F := Ideal) x0 x3 x4 = Cert.KernelIdeal.Region0.whole (val_main_v13 (F := Ideal) x0 x3) x4 := rfl

/-- The first bias and rectifier: at (r, q) the broadcast bias reads bias q, the broadcast zero reads zero. -/
theorem ref_v58 : val_main_v58 (F := Ideal) x0 x1 x3 x4 x5 = Cert.KernelIdeal.Region1.whole (val_main_v54 (F := Ideal) x0 x1 x3 x4) x5 := by
  funext i
  obtain ⟨r, q, rfl⟩ : ∃ (r : Fin 50000) (q : Fin 128), i = ix2 r q := ⟨i 0, i 1, eq_ix2 i⟩
  rw [val_main_v58_apply, val_main_v57_apply, val_main_v56_apply, val_main_v55_apply, val_main_call0_v0_apply, val_main_call0_cst_apply]
  have e : idx_main_v55 (idx_main_v56 (ix2 r q)) = ix1 q := funext fun a => Fin.ext (by match a with | ⟨0, _⟩ => rfl)
  rw [e]
  rfl

/-- The second dense product. -/
theorem ref_v59 : val_main_v59 (F := Ideal) x0 x1 x3 x4 x5 x6 = Cert.KernelIdeal.Region2.whole (val_main_v58 (F := Ideal) x0 x1 x3 x4 x5) x6 := rfl

/-- The second bias and rectifier. -/
theorem ref_v76 : val_main_v76 (F := Ideal) x0 x1 x3 x4 x5 x6 x7 = Cert.KernelIdeal.Region3.whole (val_main_v72 (F := Ideal) x0 x1 x3 x4 x5 x6) x7 := by
  funext i
  obtain ⟨r, q, rfl⟩ : ∃ (r : Fin 50000) (q : Fin 128), i = ix2 r q := ⟨i 0, i 1, eq_ix2 i⟩
  rw [val_main_v76_apply, val_main_v75_apply, val_main_v74_apply, val_main_v73_apply, val_main_call1_v0_apply, val_main_call1_cst_apply]
  have e : idx_main_v73 (idx_main_v74 (ix2 r q)) = ix1 q := funext fun a => Fin.ext (by match a with | ⟨0, _⟩ => rfl)
  rw [e]
  rfl

/-- The classifier: the host's product plus the bias broadcast over rows. -/
theorem ref_v92 : val_main_v92 (F := Ideal) x0 x1 x2 x3 x4 x5 x6 x7 x8 x9
    = Cert.KernelIdeal.Region4.whole (val_main_v88 (F := Ideal) x0 x1 x2 x3 x4 x5 x6 x7) x8 x9 := by
  funext i
  obtain ⟨r, q, rfl⟩ : ∃ (r : Fin 512) (q : Fin 10), i = ix2 r q := ⟨i 0, i 1, eq_ix2 i⟩
  rw [val_main_v92_apply, val_main_v91_apply, val_main_v90_apply]
  have e : idx_main_v90 (idx_main_v91 (ix2 r q)) = ix1 q := funext fun a => Fin.ext (by match a with | ⟨0, _⟩ => rfl)
  rw [e]
  rfl

/-- The reference's result is the kernel's regions composed with the shared aggregation and pooling. -/
theorem ref_result : val_main_v92 (F := Ideal) x0 x1 x2 x3 x4 x5 x6 x7 x8 x9
    = Cert.KernelIdeal.Region4.whole (pool x2 (Cert.KernelIdeal.Region3.whole (agg x1 (Cert.KernelIdeal.Region2.whole
        (Cert.KernelIdeal.Region1.whole (agg x1 (Cert.KernelIdeal.Region0.whole (val_main_v13 (F := Ideal) x0 x3) x4)) x5) x6)) x7)) x8 x9 := by
  rw [ref_v92, ref_v88, ref_v76, ref_v72, ref_v59, ref_v58, ref_v54, ref_v41]

end Cert.Bridge

end
-- ==== Proof.lean ====
/-
  A two-layer graph convolution classifier, kernel against reference, at exact (extended-real) values.

  Both programs compute: an embedding lookup with row 0 zeroed; the edge list with self loops and its symmetric
  degree normalisation; twice — a dense product with a weight matrix, an aggregation of the product's rows along the
  edges, a bias and a rectifier —; a mean pooling over graphs; a classifier (a dense product plus a bias).  The kernel
  runs the dense products, the bias-and-rectifier steps and the classifier as five pipelined regions over row blocks,
  the reference as host operations on whole arrays; every other operation is the same host operation in both.

  The proof names the kernel's result (Proof/KernelRun.lean: the run with the result array's final contents; Proof/Region0 … Region4:
  each region's output array as one function of its input arrays; Proof/Chain.lean: the buffers at each segment boundary),
  reads the reference's run through its stages, and shows the two results are one function of the arguments
  (Proof/Shared.lean: the aggregation and the pooling as functions of the node features; Proof/Bridge.lean: stage by
  stage).  The only mathematics is that an entry of a matrix product is the same sum over the contracted axis on the
  matrix unit, block by block, as on the host, and that a bias broadcast over rows reads its entry q at (r, q); no
  finiteness is needed.  The idealization rewrote nothing, so `preserves` is trivial.
-/
import proofs.«163857_j88648124990263_1_alg».proof.Defs
import proofs.«163857_j88648124990263_1_alg».proof.Proof.Gen.Kernel
import proofs.«163857_j88648124990263_1_alg».proof.Proof.Gen.Kernel.Skeleton
import proofs.«163857_j88648124990263_1_alg».proof.Proof.Gen.Kernel.Launch
import proofs.«163857_j88648124990263_1_alg».proof.Proof.Gen.Kernel.Points
import proofs.«163857_j88648124990263_1_alg».proof.Proof.Gen.Kernel.Frame
import proofs.«163857_j88648124990263_1_alg».proof.Proof.Gen.KernelIdeal
import proofs.«163857_j88648124990263_1_alg».proof.Proof.Gen.KernelIdeal.Skeleton
import proofs.«163857_j88648124990263_1_alg».proof.Proof.Gen.KernelIdeal.Launch
import proofs.«163857_j88648124990263_1_alg».proof.Proof.Gen.KernelIdeal.Points
import proofs.«163857_j88648124990263_1_alg».proof.Proof.Gen.KernelIdeal.Frame
import proofs.«163857_j88648124990263_1_alg».proof.Proof.Gen.ReferenceIdeal
import proofs.«163857_j88648124990263_1_alg».proof.Proof.Gen.ReferenceIdeal.Run
import proofs.«163857_j88648124990263_1_alg».proof.Proof.Gen.ReferenceIdeal.Read
import proofs.«163857_j88648124990263_1_alg».proof.Proof.Gen.Pre_finite_inputs
import proofs.«163857_j88648124990263_1_alg».proof.Proof.KernelRun
import proofs.«163857_j88648124990263_1_alg».proof.Proof.Chain
import proofs.«163857_j88648124990263_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the composition of its five regions' functions with the shared aggregation and
    pooling (the kernel's run and its boundary values); the reference's result is the same composition of the same
    arguments (its run, read stage by stage). -/
theorem algebraic : Cert.algebraic_KernelIdeal_ReferenceIdeal := by
  intro m ρ m' ρ' _ hagree
  refine ⟨fun c => Cert.KernelIdeal.Chain.out m c, (θ_run Cert.KernelIdeal.defs _ _).mono
    (fun r h c => ⟨(h c).1.trans (Cert.KernelIdeal.Chain.result m ρ c), (h c).2⟩) (Cert.KernelIdeal.RunValue.run_result m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v92_eq, h0, h1, h2, h3, h4, h5, h6, h7, h8, h9]
  exact Cert.Bridge.ref_result _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
